-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x3 : Shape := ⟨3, ![8, 2048, 3]⟩
abbrev S8x2048x4096 : Shape := ⟨3, ![8, 2048, 4096]⟩
abbrev S8x6 : Shape := ⟨2, ![8, 6]⟩
abbrev S8 : Shape := ⟨1, ![8]⟩
abbrev S1x8 : Shape := ⟨2, ![1, 8]⟩
abbrev S1 : Shape := ⟨1, ![1]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel
  bcast_S_S8x2048x4096 : S_.BroadcastsInDim S8x2048x4096 (![] : Fin 0 → Fin S8x2048x4096.rank)
  reducesTo_S8x2048x4096_S_d0_1_2 : S8x2048x4096.ReducesTo [0, 1, 2] S_
  bcast_S_S8x6 : S_.BroadcastsInDim S8x6 (![] : Fin 0 → Fin S8x6.rank)
  reducesTo_S8x6_S_d0_1 : S8x6.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S8 .f32) (main_arg5 : FVec F S1x8 .f32) (main_arg6 : FVec F S1 .f32) (main_v13 : IVec S_ 1) (main_v16 : IVec S8x6 1) : IVec S_ 1 :=
  let main_c_5 : IVec S_ 1 := constantI S_ 1 1#1
  let main_v17 : IVec S_ 1 := (fun x v => Host.reduce IntOp.andi x v reducesTo_S8x6_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S1x8 .f32 := Host.absf main_arg5
  let main_cst_8 : FVec F S_ .f32 := constant S_ .f32 0x7F800000#32
  let main_v25 : FVec F S1x8 .f32 := broadcastInDim S1x8 ![] bcast_S_S1x8 main_cst_8
  let main_v26 : IVec S1x8 1 := cmpf .olt main_v24 main_v25
  let main_c_9 : IVec S_ 1 := constantI S_ 1 1#1
  let main_v27 : IVec S_ 1 := (fun x v => Host.reduce IntOp.andi x v reducesTo_S1x8_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S8x2048x3 .f32) (main_arg1 : FVec F S8x2048x4096 .f32) (main_arg2 : FVec F S8x2048x4096 .f32) (main_arg3 : FVec F S8x6 .f32) (main_arg4 : FVec F S8 .f32) (main_arg5 : FVec F S1x8 .f32) (main_arg6 : FVec F S1 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  let main_v4 : FVec F S8x2048x4096 .f32 := Host.absf main_arg1
  let main_cst_0 : FVec F S_ .f32 := constant S_ .f32 0x7F800000#32
  let main_v5 : FVec F S8x2048x4096 .f32 := broadcastInDim S8x2048x4096 ![] bcast_S_S8x2048x4096 main_cst_0
  let main_v6 : IVec S8x2048x4096 1 := cmpf .olt main_v4 main_v5
  let main_c_1 : IVec S_ 1 := constantI S_ 1 1#1
  let main_v7 : IVec S_ 1 := (fun x v => Host.reduce IntOp.andi x v reducesTo_S8x2048x4096_S_d0_1_2 h_S_) main_v6 main_c_1
  let main_v8 : IVec S_ 1 := andi main_v3 main_v7
  let main_v9 : FVec F S8x2048x4096 .f32 := Host.absf main_arg2
  let main_cst_2 : FVec F S_ .f32 := constant S_ .f32 0x7F800000#32
  let main_v10 : FVec F S8x2048x4096 .f32 := broadcastInDim S8x2048x4096 ![] bcast_S_S8x2048x4096 main_cst_2
  let main_v11 : IVec S8x2048x4096 1 := cmpf .olt main_v9 main_v10
  let main_c_3 : IVec S_ 1 := constantI S_ 1 1#1
  let main_v12 : IVec S_ 1 := (fun x v => Host.reduce IntOp.andi x v reducesTo_S8x2048x4096_S_d0_1_2 h_S_) main_v11 main_c_3
  let main_v13 : IVec S_ 1 := andi main_v8 main_v12
  let main_v14 : FVec F S8x6 .f32 := Host.absf main_arg3
  let main_cst_4 : FVec F S_ .f32 := constant S_ .f32 0x7F800000#32
  let main_v15 : FVec F S8x6 .f32 := broadcastInDim S8x6 ![] bcast_S_S8x6 main_cst_4
  let main_v16 : IVec S8x6 1 := cmpf .olt main_v14 main_v15
  fn_part1 (F := F) main_arg4 main_arg5 main_arg6 main_v13 main_v16
-- ==== Kernel.lean ====
abbrev S8x2048x3 : Shape := ⟨3, ![8, 2048, 3]⟩
abbrev S8x2048x4096 : Shape := ⟨3, ![8, 2048, 4096]⟩
abbrev S8x6 : Shape := ⟨2, ![8, 6]⟩
abbrev S8 : Shape := ⟨1, ![8]⟩
abbrev S1x8 : Shape := ⟨2, ![1, 8]⟩
abbrev S1 : Shape := ⟨1, ![1]⟩
abbrev S32768 : Shape := ⟨1, ![32768]⟩
abbrev S1x2048x3 : Shape := ⟨3, ![1, 2048, 3]⟩
abbrev S1x2048x512 : Shape := ⟨3, ![1, 2048, 512]⟩
abbrev S512 : Shape := ⟨1, ![512]⟩
abbrev S2048x3 : Shape := ⟨2, ![2048, 3]⟩
abbrev S2048x512 : Shape := ⟨2, ![2048, 512]⟩
abbrev S512x3 : Shape := ⟨2, ![512, 3]⟩
abbrev S512x6 : Shape := ⟨2, ![512, 6]⟩
abbrev S512x8 : Shape := ⟨2, ![512, 8]⟩
abbrev S512x1 : Shape := ⟨2, ![512, 1]⟩
abbrev S1x1 : Shape := ⟨2, ![1, 1]⟩
abbrev S8x4096 : Shape := ⟨2, ![8, 4096]⟩

abbrev nBuf : Space → Nat
  | .hbm => 9
  | .vmem => 12
  | .smem => 0
  | _ => 0

abbrev bufTy : (tb : Table) → Fin (tcTables nBuf tb) → BufTy
  | .hbm, ⟨0, _⟩ => ⟨S8x2048x3, .f32⟩
  | .hbm, ⟨1, _⟩ => ⟨S8x2048x4096, .f32⟩
  | .hbm, ⟨2, _⟩ => ⟨S8x2048x4096, .f32⟩
  | .hbm, ⟨3, _⟩ => ⟨S8x6, .f32⟩
  | .hbm, ⟨4, _⟩ => ⟨S8, .f32⟩
  | .hbm, ⟨5, _⟩ => ⟨S1x8, .f32⟩
  | .hbm, ⟨6, _⟩ => ⟨S1, .f32⟩
  | .hbm, ⟨7, _⟩ => ⟨S32768, .f32⟩
  | .hbm, ⟨8, _⟩ => ⟨S8x4096, .f32⟩
  | .local _ .vmem, ⟨0, _⟩ => ⟨S1x2048x3, .f32⟩
  | .local _ .vmem, ⟨1, _⟩ => ⟨S1x2048x3, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S8x6, .f32⟩
  | .local _ .vmem, ⟨7, _⟩ => ⟨S8, .f32⟩
  | .local _ .vmem, ⟨8, _⟩ => ⟨S1x8, .f32⟩
  | .local _ .vmem, ⟨9, _⟩ => ⟨S1, .f32⟩
  | .local _ .vmem, ⟨10, _⟩ => ⟨S512, .f32⟩
  | .local _ .vmem, ⟨11, _⟩ => ⟨S512, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  ![v1.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  concatenates_S512x3_S512x3_S512x6_d1 : Shape.Concatenates [S512x3, S512x3] S512x6 1
  inb_S8x6_S8x6_0_0 : ∀ a, (![0, 0] : Fin 2 → Nat) a + S8x6.size a ≤ S8x6.size a
  h_S8x6 : 0 < S8x6.numel
  inb_S8_S8_0 : ∀ a, (![0] : Fin 1 → Nat) a + S8.size a ≤ S8.size a
  h_S8 : 0 < S8.numel
  shapeCasts_S8_S1x8 : S8.ShapeCasts S1x8
  broadcasts_S1x8_S512x8 : S1x8.Broadcasts S512x8
  inb_S1x8_S1x8_0_0 : ∀ a, (![0, 0] : Fin 2 → Nat) a + S1x8.size a ≤ S1x8.size a
  h_S1x8 : 0 < S1x8.numel
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  shapeCasts_S512x1_S512 : S512x1.ShapeCasts S512
  inb_S512_S512_0 : ∀ a, (![0] : Fin 1 → Nat) a + S512.size a ≤ S512.size a
  h_S512 : 0 < S512.numel
  shapeCasts_S32768_S8x4096 : S32768.ShapeCasts S8x4096
  dot_S2048x512_S2048x3_S512x3_0_0_1_1_n_n_wf : DotDims.WF S2048x512 S2048x3 S512x3 [0] [0] [1] [1] [] []
  dot_S512x6_S8x6_S512x8_1_1_0_0_n_n_wf : DotDims.WF S512x6 S8x6 S512x8 [1] [1] [0] [0] [] []
  dot_S512x8_S1x8_S512x1_1_1_0_0_n_n_wf : DotDims.WF S512x8 S1x8 S512x1 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S8x2048x3.size a
  hwx0_0 : ∀ i : grid0.Coords, EltTy.bits .f32 = 32 ∨ (Rect.block (s := S8x2048x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x4096.size a
  hwx0_1 : ∀ i : grid0.Coords, EltTy.bits .f32 = 32 ∨ (Rect.block (s := S8x2048x4096) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x4096.size a
  hwx0_2 : ∀ i : grid0.Coords, EltTy.bits .f32 = 32 ∨ (Rect.block (s := S8x2048x4096) S1x2048x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x6.size a ≤ S8x6.size a
  hwx0_3 : ∀ i : grid0.Coords, EltTy.bits .f32 = 32 ∨ (Rect.block (s := S8x6) S8x6.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8.size a ≤ S8.size a
  hwx0_4 : ∀ i : grid0.Coords, EltTy.bits .f32 = 32 ∨ (Rect.block (s := S8) S8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8.size a ≤ S1x8.size a
  hwx0_5 : ∀ i : grid0.Coords, EltTy.bits .f32 = 32 ∨ (Rect.block (s := S1x8) S1x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S32768.size a
  hwx0_7 : ∀ i : grid0.Coords, EltTy.bits .f32 = 32 ∨ (Rect.block (s := S32768) S512.size (cc0_transform_7 i) (hinb0_7 i)).WholeWords (EltTy.packing .f32)

variable [Facts₀]

def dot_S2048x512_S2048x3_S512x3_0_0_1_1_n_n : DotDims S2048x512 S2048x3 S512x3 where
  lhsContracting := [0]
  rhsContracting := [0]
  lhsNonContracting := [1]
  rhsNonContracting := [1]
  lhsBatch := []
  rhsBatch := []
  wf := dot_S2048x512_S2048x3_S512x3_0_0_1_1_n_n_wf
def dot_S512x6_S8x6_S512x8_1_1_0_0_n_n : DotDims S512x6 S8x6 S512x8 where
  lhsContracting := [1]
  rhsContracting := [1]
  lhsNonContracting := [0]
  rhsNonContracting := [0]
  lhsBatch := []
  rhsBatch := []
  wf := dot_S512x6_S8x6_S512x8_1_1_0_0_n_n_wf
def dot_S512x8_S1x8_S512x1_1_1_0_0_n_n : DotDims S512x8 S1x8 S512x1 where
  lhsContracting := [1]
  rhsContracting := [1]
  lhsNonContracting := [0]
  rhsNonContracting := [0]
  lhsBatch := []
  rhsBatch := []
  wf := dot_S512x8_S1x8_S512x1_1_1_0_0_n_n_wf

abbrev win0_0 : Pipeline.Window sig grid0 :=
  Pipeline.Window.ofSpec (Memref.whole main_arg0) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x6.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x2048x3 : Shape := ⟨3, ![8, 2048, 3]⟩
abbrev S8x2048x4096 : Shape := ⟨3, ![8, 2048, 4096]⟩
abbrev S8x6 : Shape := ⟨2, ![8, 6]⟩
abbrev S8 : Shape := ⟨1, ![8]⟩
abbrev S1x8 : Shape := ⟨2, ![1, 8]⟩
abbrev S1 : Shape := ⟨1, ![1]⟩
abbrev S8x4096x3 : Shape := ⟨3, ![8, 4096, 3]⟩
abbrev S8x4096x6 : Shape := ⟨3, ![8, 4096, 6]⟩
abbrev S8x4096x8 : Shape := ⟨3, ![8, 4096, 8]⟩
abbrev S1x1x8 : Shape := ⟨3, ![1, 1, 8]⟩
abbrev S8x4096x1 : Shape := ⟨3, ![8, 4096, 1]⟩
abbrev S1x1x1 : Shape := ⟨3, ![1, 1, 1]⟩
abbrev S_ : Shape := ⟨0, ![]⟩
abbrev S8x4096 : Shape := ⟨2, ![8, 4096]⟩

abbrev nBuf : Space → Nat
  | .hbm => 28
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S8x2048x4096, .f32⟩
  | .hbm, ⟨2, _⟩ => ⟨S8x2048x4096, .f32⟩
  | .hbm, ⟨3, _⟩ => ⟨S8x6, .f32⟩
  | .hbm, ⟨4, _⟩ => ⟨S8, .f32⟩
  | .hbm, ⟨5, _⟩ => ⟨S1x8, .f32⟩
  | .hbm, ⟨6, _⟩ => ⟨S1, .f32⟩
  | .hbm, ⟨7, _⟩ => ⟨S8x4096x3, .f32⟩
  | .hbm, ⟨8, _⟩ => ⟨S8x4096x3, .f32⟩
  | .hbm, ⟨9, _⟩ => ⟨S8x4096x6, .f32⟩
  | .hbm, ⟨10, _⟩ => ⟨S8x4096x8, .f32⟩
  | .hbm, ⟨11, _⟩ => ⟨S1x1x8, .f32⟩
  | .hbm, ⟨12, _⟩ => ⟨S8x4096x8, .f32⟩
  | .hbm, ⟨13, _⟩ => ⟨S8x4096x8, .f32⟩
  | .hbm, ⟨14, _⟩ => ⟨S8x4096x8, .f32⟩
  | .hbm, ⟨15, _⟩ => ⟨S8x4096x1, .f32⟩
  | .hbm, ⟨16, _⟩ => ⟨S1x1x1, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096, .f32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  concatenates_S8x4096x3_S8x4096x3_S8x4096x6_d2 : Shape.Concatenates [S8x4096x3, S8x4096x3] S8x4096x6 2
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bcast_S1_S1x1x1_2 : S1.BroadcastsInDim S1x1x1 (![2] : Fin 1 → Fin S1x1x1.rank)
  bcast_S1x1x1_S8x4096x1_0_1_2 : S1x1x1.BroadcastsInDim S8x4096x1 (![0, 1, 2] : Fin 3 → Fin S8x4096x1.rank)
  bcast_S_S8x4096x1 : S_.BroadcastsInDim S8x4096x1 (![] : Fin 0 → Fin S8x4096x1.rank)
  shapeCasts_S8x4096x1_S8x4096 : S8x4096x1.ShapeCasts S8x4096
  dot_S8x2048x4096_S8x2048x3_S8x4096x3_1_1_2_2_0_0_wf : DotDims.WF S8x2048x4096 S8x2048x3 S8x4096x3 [1] [1] [2] [2] [0] [0]
  dot_S8x4096x6_S8x6_S8x4096x8_2_1_01_0_n_n_wf : DotDims.WF S8x4096x6 S8x6 S8x4096x8 [2] [1] [0, 1] [0] [] []
  dot_S8x4096x8_S1x8_S8x4096x1_2_1_01_0_n_n_wf : DotDims.WF S8x4096x8 S1x8 S8x4096x1 [2] [1] [0, 1] [0] [] []

variable [Facts₀]

def dot_S8x2048x4096_S8x2048x3_S8x4096x3_1_1_2_2_0_0 : DotDims S8x2048x4096 S8x2048x3 S8x4096x3 where
  lhsContracting := [1]
  rhsContracting := [1]
  lhsNonContracting := [2]
  rhsNonContracting := [2]
  lhsBatch := [0]
  rhsBatch := [0]
  wf := dot_S8x2048x4096_S8x2048x3_S8x4096x3_1_1_2_2_0_0_wf
def dot_S8x4096x6_S8x6_S8x4096x8_2_1_01_0_n_n : DotDims S8x4096x6 S8x6 S8x4096x8 where
  lhsContracting := [2]
  rhsContracting := [1]
  lhsNonContracting := [0, 1]
  rhsNonContracting := [0]
  lhsBatch := []
  rhsBatch := []
  wf := dot_S8x4096x6_S8x6_S8x4096x8_2_1_01_0_n_n_wf
def dot_S8x4096x8_S1x8_S8x4096x1_2_1_01_0_n_n : DotDims S8x4096x8 S1x8 S8x4096x1 where
  lhsContracting := [2]
  rhsContracting := [1]
  lhsNonContracting := [0, 1]
  rhsNonContracting := [0]
  lhsBatch := []
  rhsBatch := []
  wf := dot_S8x4096x8_S1x8_S8x4096x1_2_1_01_0_n_n_wf

class Facts : Prop extends Facts₀ where

variable [Facts]
-- ==== Proof.KernelOps.lean ====
/-
  The operations of the kernel's body, each read at an index, at the ideal values.

  The body works on one batch entry `b` and one tile of 512 edges. It receives the node features as a
  [1, 2048, 3] block and each incidence matrix as a [1, 2048, 512] block, drops the unit axis, and contracts
  the NODE axis (axis 0 of both operands) — so entry (e, d) of a product is `∑ₙ l (n, e) · r (n, d)`, the
  incidence column of edge `e` against feature `d`. The two [512, 3] products are laid side by side into
  [512, 6]; the two dense layers contract the LAST axis of both operands (`∑ₖ f (e, k) · w (h, k)`); a bias
  vector is made a one-row matrix and repeated down the 512 rows; the [512, 1] column of scores is
  flattened to [512].
-/
import proofs.«182220_j41832981463620_2_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.Ops

open Cert.KernelIdeal Cert.KernelIdeal.Gen Idealize.ShloMosaic Idealize.ShloMosaic.ValueIdx

/-- Dropping the unit batch axis of the node-feature block: entry (n, d) is entry (0, n, d). -/
theorem nodes_apply {α : Type} (v : S1x2048x3.Idx → α) (n : Fin 2048) (d : Fin 3) :
    shapeCast S2048x3 v shapeCasts_S1x2048x3_S2048x3 (ix2 n d) = v (ix3 0 n d) :=
  shapeCast_apply v shapeCasts_S1x2048x3_S2048x3 (ix2 n d) (ix3 0 n d)
    (by rw [Shape.rowMajor_val_three, Shape.rowMajor_val_two]
        show ((0 : Fin 1).val * 2048 + n.val) * 3 + d.val = n.val * 3 + d.val
        simp)

/-- Dropping the unit batch axis of an incidence block: entry (n, e) is entry (0, n, e). -/
theorem incidence_apply {α : Type} (v : S1x2048x512.Idx → α) (n : Fin 2048) (e : Fin 512) :
    shapeCast S2048x512 v shapeCasts_S1x2048x512_S2048x512 (ix2 n e) = v (ix3 0 n e) :=
  shapeCast_apply v shapeCasts_S1x2048x512_S2048x512 (ix2 n e) (ix3 0 n e)
    (by rw [Shape.rowMajor_val_three, Shape.rowMajor_val_two]
        show ((0 : Fin 1).val * 2048 + n.val) * 512 + e.val = n.val * 512 + e.val
        simp)

/-- Flattening the column of scores: entry e of the vector is entry (e, 0) of the column. -/
theorem column_apply {α : Type} (v : S512x1.Idx → α) (e : Fin 512) :
    shapeCast S512 v shapeCasts_S512x1_S512 (ix1 e) = v (ix2 e 0) :=
  shapeCast_apply v shapeCasts_S512x1_S512 (ix1 e) (ix2 e 0)
    (by rw [Shape.rowMajor_val_two, Shape.rowMajor_val_one]
        show e.val * 1 + (0 : Fin 1).val = e.val
        simp)

/-! ## The three products -/

theorem gather_lhs_edge (j : S512x3.Idx) (q : dot_S2048x512_S2048x3_S512x3_0_0_1_1_n_n.contr.Idx) : (dot_S2048x512_S2048x3_S512x3_0_0_1_1_n_n.lhsIdx j q 1).val = (j 0).val := by
  unfold DotDims.lhsIdx
  rw [dif_neg (show ¬(1 : Fin S2048x512.rank) ∈ dot_S2048x512_S2048x3_S512x3_0_0_1_1_n_n.lhsBatch by decide), dif_pos (show (1 : Fin S2048x512.rank) ∈ dot_S2048x512_S2048x3_S512x3_0_0_1_1_n_n.lhsNonContracting by decide)]
  rfl
theorem gather_rhs_feat (j : S512x3.Idx) (q : dot_S2048x512_S2048x3_S512x3_0_0_1_1_n_n.contr.Idx) : (dot_S2048x512_S2048x3_S512x3_0_0_1_1_n_n.rhsIdx j q 1).val = (j 1).val := by
  unfold DotDims.rhsIdx
  rw [dif_neg (show ¬(1 : Fin S2048x3.rank) ∈ dot_S2048x512_S2048x3_S512x3_0_0_1_1_n_n.rhsBatch by decide), dif_pos (show (1 : Fin S2048x3.rank) ∈ dot_S2048x512_S2048x3_S512x3_0_0_1_1_n_n.rhsNonContracting by decide)]
  rfl
theorem dense6_lhs_row (j : S512x8.Idx) (q : dot_S512x6_S8x6_S512x8_1_1_0_0_n_n.contr.Idx) : (dot_S512x6_S8x6_S512x8_1_1_0_0_n_n.lhsIdx j q 0).val = (j 0).val := by
  unfold DotDims.lhsIdx
  rw [dif_neg (show ¬(0 : Fin S512x6.rank) ∈ dot_S512x6_S8x6_S512x8_1_1_0_0_n_n.lhsBatch by decide), dif_pos (show (0 : Fin S512x6.rank) ∈ dot_S512x6_S8x6_S512x8_1_1_0_0_n_n.lhsNonContracting by decide)]
  rfl
theorem dense6_rhs_row (j : S512x8.Idx) (q : dot_S512x6_S8x6_S512x8_1_1_0_0_n_n.contr.Idx) : (dot_S512x6_S8x6_S512x8_1_1_0_0_n_n.rhsIdx j q 0).val = (j 1).val := by
  unfold DotDims.rhsIdx
  rw [dif_neg (show ¬(0 : Fin S8x6.rank) ∈ dot_S512x6_S8x6_S512x8_1_1_0_0_n_n.rhsBatch by decide), dif_pos (show (0 : Fin S8x6.rank) ∈ dot_S512x6_S8x6_S512x8_1_1_0_0_n_n.rhsNonContracting by decide)]
  rfl
theorem dense8_lhs_row (j : S512x1.Idx) (q : dot_S512x8_S1x8_S512x1_1_1_0_0_n_n.contr.Idx) : (dot_S512x8_S1x8_S512x1_1_1_0_0_n_n.lhsIdx j q 0).val = (j 0).val := by
  unfold DotDims.lhsIdx
  rw [dif_neg (show ¬(0 : Fin S512x8.rank) ∈ dot_S512x8_S1x8_S512x1_1_1_0_0_n_n.lhsBatch by decide), dif_pos (show (0 : Fin S512x8.rank) ∈ dot_S512x8_S1x8_S512x1_1_1_0_0_n_n.lhsNonContracting by decide)]
  rfl
theorem dense8_rhs_row (j : S512x1.Idx) (q : dot_S512x8_S1x8_S512x1_1_1_0_0_n_n.contr.Idx) : (dot_S512x8_S1x8_S512x1_1_1_0_0_n_n.rhsIdx j q 0).val = (j 1).val := by
  unfold DotDims.rhsIdx
  rw [dif_neg (show ¬(0 : Fin S1x8.rank) ∈ dot_S512x8_S1x8_S512x1_1_1_0_0_n_n.rhsBatch by decide), dif_pos (show (0 : Fin S1x8.rank) ∈ dot_S512x8_S1x8_S512x1_1_1_0_0_n_n.rhsNonContracting by decide)]
  rfl

/-- The product that contracts the node axis: entry (e, d) is `∑ₙ l (n, e) · r (n, d)` — the incidence
    column of edge `e` against node feature `d`. The accumulator is the zero splat. -/
theorem gather_apply {φ₁ φ₂ : FTy} (l : FVec Ideal S2048x512 φ₁) (r : FVec Ideal S2048x3 φ₂) (e : Fin 512) (d : Fin 3) :
    matmul dot_S2048x512_S2048x3_S512x3_0_0_1_1_n_n none l r (constant S512x3 .f32 0x00000000#32) (ix2 e d)
      = ∑ n : Fin 2048, l (ix2 n e) * r (ix2 n d) := by
  simp only [matmul]
  rw [Ideal.matmul_constant_zero_apply, ← Equiv.sum_comp (contrEquiv1 dot_S2048x512_S2048x3_S512x3_0_0_1_1_n_n 2048 rfl rfl).symm]
  refine Finset.sum_congr rfl fun k _ => ?_
  have hk := contrEquiv1_symm_val dot_S2048x512_S2048x3_S512x3_0_0_1_1_n_n 2048 rfl rfl k
  have el : dot_S2048x512_S2048x3_S512x3_0_0_1_1_n_n.lhsIdx (ix2 e d) ((contrEquiv1 dot_S2048x512_S2048x3_S512x3_0_0_1_1_n_n 2048 rfl rfl).symm k) = ix2 k e := funext fun a => Fin.ext (by
    match a with
    | ⟨0, _⟩ => exact (dot_S2048x512_S2048x3_S512x3_0_0_1_1_n_n.lhsIdx_val_of_single rfl _ _).trans hk
    | ⟨1, _⟩ => exact gather_lhs_edge _ _)
  have er : dot_S2048x512_S2048x3_S512x3_0_0_1_1_n_n.rhsIdx (ix2 e d) ((contrEquiv1 dot_S2048x512_S2048x3_S512x3_0_0_1_1_n_n 2048 rfl rfl).symm k) = ix2 k d := funext fun a => Fin.ext (by
    match a with
    | ⟨0, _⟩ => exact (dot_S2048x512_S2048x3_S512x3_0_0_1_1_n_n.rhsIdx_val_of_single rfl _ _).trans hk
    | ⟨1, _⟩ => exact gather_rhs_feat _ _)
  rw [el, er]

/-- The first dense layer: entry (e, h) is `∑ₖ f (e, k) · w (h, k)` over the six features. -/
theorem dense6_apply {φ₁ φ₂ : FTy} (f : FVec Ideal S512x6 φ₁) (w : FVec Ideal S8x6 φ₂) (e : Fin 512) (h : Fin 8) :
    matmul dot_S512x6_S8x6_S512x8_1_1_0_0_n_n none f w (constant S512x8 .f32 0x00000000#32) (ix2 e h)
      = ∑ k : Fin 6, f (ix2 e k) * w (ix2 h k) := by
  simp only [matmul]
  rw [Ideal.matmul_constant_zero_apply, ← Equiv.sum_comp (contrEquiv1 dot_S512x6_S8x6_S512x8_1_1_0_0_n_n 6 rfl rfl).symm]
  refine Finset.sum_congr rfl fun k _ => ?_
  have hk := contrEquiv1_symm_val dot_S512x6_S8x6_S512x8_1_1_0_0_n_n 6 rfl rfl k
  have el : dot_S512x6_S8x6_S512x8_1_1_0_0_n_n.lhsIdx (ix2 e h) ((contrEquiv1 dot_S512x6_S8x6_S512x8_1_1_0_0_n_n 6 rfl rfl).symm k) = ix2 e k := funext fun a => Fin.ext (by
    match a with
    | ⟨0, _⟩ => exact dense6_lhs_row _ _
    | ⟨1, _⟩ => exact (dot_S512x6_S8x6_S512x8_1_1_0_0_n_n.lhsIdx_val_of_single rfl _ _).trans hk)
  have er : dot_S512x6_S8x6_S512x8_1_1_0_0_n_n.rhsIdx (ix2 e h) ((contrEquiv1 dot_S512x6_S8x6_S512x8_1_1_0_0_n_n 6 rfl rfl).symm k) = ix2 h k := funext fun a => Fin.ext (by
    match a with
    | ⟨0, _⟩ => exact dense6_rhs_row _ _
    | ⟨1, _⟩ => exact (dot_S512x6_S8x6_S512x8_1_1_0_0_n_n.rhsIdx_val_of_single rfl _ _).trans hk)
  rw [el, er]

/-- The second dense layer: entry (e, 0) is `∑ₖ t (e, k) · w (0, k)` over the eight hidden units. -/
theorem dense8_apply {φ₁ φ₂ : FTy} (t : FVec Ideal S512x8 φ₁) (w : FVec Ideal S1x8 φ₂) (e : Fin 512) :
    matmul dot_S512x8_S1x8_S512x1_1_1_0_0_n_n none t w (constant S512x1 .f32 0x00000000#32) (ix2 e 0)
      = ∑ k : Fin 8, t (ix2 e k) * w (ix2 0 k) := by
  simp only [matmul]
  rw [Ideal.matmul_constant_zero_apply, ← Equiv.sum_comp (contrEquiv1 dot_S512x8_S1x8_S512x1_1_1_0_0_n_n 8 rfl rfl).symm]
  refine Finset.sum_congr rfl fun k _ => ?_
  have hk := contrEquiv1_symm_val dot_S512x8_S1x8_S512x1_1_1_0_0_n_n 8 rfl rfl k
  have el : dot_S512x8_S1x8_S512x1_1_1_0_0_n_n.lhsIdx (ix2 e 0) ((contrEquiv1 dot_S512x8_S1x8_S512x1_1_1_0_0_n_n 8 rfl rfl).symm k) = ix2 e k := funext fun a => Fin.ext (by
    match a with
    | ⟨0, _⟩ => exact dense8_lhs_row _ _
    | ⟨1, _⟩ => exact (dot_S512x8_S1x8_S512x1_1_1_0_0_n_n.lhsIdx_val_of_single rfl _ _).trans hk)
  have er : dot_S512x8_S1x8_S512x1_1_1_0_0_n_n.rhsIdx (ix2 e 0) ((contrEquiv1 dot_S512x8_S1x8_S512x1_1_1_0_0_n_n 8 rfl rfl).symm k) = ix2 0 k := funext fun a => Fin.ext (by
    match a with
    | ⟨0, _⟩ => exact dense8_rhs_row _ _
    | ⟨1, _⟩ => exact (dot_S512x8_S1x8_S512x1_1_1_0_0_n_n.rhsIdx_val_of_single rfl _ _).trans hk)
  rw [el, er]

/-! ## The six features side by side, and the two biases -/

/-- Two [512, 3] matrices laid side by side: column `j < 3` is the first one's column `j`, column `3 ≤ j` the
    second one's column `j − 3`. -/
theorem sideBySide_apply {α : Type} (a b : S512x3.Idx → α) (e : Fin 512) (j : Fin 6) :
    concatenate S512x6 1 [⟨S512x3, a⟩, ⟨S512x3, b⟩] concatenates_S512x3_S512x3_S512x6_d1 (ix2 e j)
      = if h : j.val < 3 then a (ix2 e ⟨j.val, h⟩) else b (ix2 e ⟨j.val - 3, by have := j.isLt; omega⟩) := by
  split
  · rename_i h
    exact concatenate_pair_apply_left (1 : Fin S512x6.rank) a b concatenates_S512x3_S512x3_S512x6_d1 (ix2 e j) rfl
      (ix2 e ⟨j.val, h⟩) (fun c => by match c with | ⟨0, _⟩ => rfl | ⟨1, _⟩ => rfl)
  · rename_i h
    exact concatenate_pair_apply_right (1 : Fin S512x6.rank) a b concatenates_S512x3_S512x3_S512x6_d1 (ix2 e j) rfl rfl
      (ix2 e ⟨j.val - 3, by have := j.isLt; omega⟩)
      (fun c hc => by match c with | ⟨0, _⟩ => rfl | ⟨1, _⟩ => exact absurd rfl hc)
      (by show (j.val - 3) + 3 = j.val; omega)

/-- The first bias, made a one-row matrix and repeated down the rows: entry (e, h) is entry h of the vector. -/
theorem bias8_apply {α : Type} (v : S8.Idx → α) (e : Fin 512) (h : Fin 8) :
    broadcastTo S512x8 (shapeCast S1x8 v shapeCasts_S8_S1x8) broadcasts_S1x8_S512x8 (ix2 e h) = v (ix1 h) := by
  rw [broadcastTo_apply _ broadcasts_S1x8_S512x8 (ix2 e h) (ix2 0 h)
    (fun a => by match a with
      | ⟨0, _⟩ => show (0 : Nat) = if (1 : Nat) = 1 then 0 else _; rw [if_pos rfl]
      | ⟨1, _⟩ => show h.val = if (8 : Nat) = 1 then 0 else h.val; rw [if_neg (by decide)])]
  exact shapeCast_apply v shapeCasts_S8_S1x8 (ix2 0 h) (ix1 h)
    (by rw [Shape.rowMajor_val_one, Shape.rowMajor_val_two]; show h.val = (0 : Fin 1).val * 8 + h.val; simp)

/-- The second bias likewise: entry (e, 0) is the vector's one entry. -/
theorem bias1_apply {α : Type} (v : S1.Idx → α) (e : Fin 512) :
    broadcastTo S512x1 (shapeCast S1x1 v shapeCasts_S1_S1x1) broadcasts_S1x1_S512x1 (ix2 e 0) = v (ix1 0) := by
  rw [broadcastTo_apply _ broadcasts_S1x1_S512x1 (ix2 e 0) (ix2 0 0)
    (fun a => by match a with
      | ⟨0, _⟩ => show (0 : Nat) = if (1 : Nat) = 1 then 0 else _; rw [if_pos rfl]
      | ⟨1, _⟩ => show (0 : Nat) = if (1 : Nat) = 1 then 0 else _; rw [if_pos rfl])]
  exact shapeCast_apply v shapeCasts_S1_S1x1 (ix2 0 0) (ix1 0)
    (by rw [Shape.rowMajor_val_one, Shape.rowMajor_val_two]; rfl)

end Cert.KernelIdeal.Ops

end
-- ==== Proof.EdgeScore.lean ====
/-
  The score of one edge, as a function of coordinate-indexed families of extended reals.

  An edge `e` of a graph with 2048 nodes has an outgoing incidence column `ro` and an incoming incidence
  column `ri` (one entry per node), and the nodes carry three features each, `x n d`. The edge's six input
  features are the two incidence-weighted sums of the node features,
      feature j = ∑ₙ ro n · x n j          (j < 3),
      feature j = ∑ₙ ri n · x n (j − 3)    (3 ≤ j),
  a hidden layer of eight units applies `tanh (∑ⱼ feature j · w1 h j + b1 h)`, and the score is the logistic
  function of `∑ₕ hidden h · w2 h + b2`. Every sum is a finite sum in the extended reals and the only laws used
  about it anywhere are the commutative-monoid ones, so nothing here asks the entries to be finite.
-/
import Idealize.ShloMosaic.PureOps.Ideal

noncomputable section

namespace Cert.EdgeScore

open Idealize.ShloMosaic

/-- The incidence-weighted sum of node feature `d`: `∑ₙ r n · x n d` over the 2048 nodes. -/
def gathered (r : Fin 2048 → EReal) (x : Fin 2048 → Fin 3 → EReal) (d : Fin 3) : EReal :=
  ∑ n : Fin 2048, r n * x n d

/-- The edge's six input features: the outgoing sums first, then the incoming sums. -/
def feature (ro ri : Fin 2048 → EReal) (x : Fin 2048 → Fin 3 → EReal) (j : Fin 6) : EReal :=
  if h : j.val < 3 then gathered ro x ⟨j.val, h⟩
  else gathered ri x ⟨j.val - 3, by have := j.isLt; omega⟩

/-- Hidden unit `h`: `tanh (∑ⱼ feature j · w1 h j + b1 h)`. -/
def hidden (ro ri : Fin 2048 → EReal) (x : Fin 2048 → Fin 3 → EReal) (w1 : Fin 8 → Fin 6 → EReal)
    (b1 : Fin 8 → EReal) (h : Fin 8) : EReal :=
  Ideal.tanh (∑ j : Fin 6, feature ro ri x j * w1 h j + b1 h)

/-- The edge's score: the logistic function of `∑ₕ hidden h · w2 h + b2`. -/
def score (ro ri : Fin 2048 → EReal) (x : Fin 2048 → Fin 3 → EReal) (w1 : Fin 8 → Fin 6 → EReal)
    (b1 : Fin 8 → EReal) (w2 : Fin 8 → EReal) (b2 : EReal) : EReal :=
  Ideal.logistic (∑ h : Fin 8, hidden ro ri x w1 b1 h * w2 h + b2)

end Cert.EdgeScore

end
-- ==== Proof.KernelScore.lean ====
/-
  The body's stored vector, read at edge e of the tile, is that edge's score.

  The body loads the node features x0 as [1, 2048, 3], the incoming incidence tile x1 and the outgoing
  incidence tile x2 as [1, 2048, 512], the weights x3 [8, 6], x5 [1, 8] and the biases x4 [8], x6 [1], and stores
  one [512] vector. Changes of float format are the identity at the ideal values, so entry e of the stored
  vector is `EdgeScore.score` of column e of the two incidence tiles: the outgoing tile feeds features 0–2
  and the incoming tile features 3–5, the order in which the body lays the two products side by side.
-/
import proofs.«182220_j41832981463620_2_alg».proof.Proof.Gen.KernelIdeal.Skeleton
import proofs.«182220_j41832981463620_2_alg».proof.Proof.KernelOps
import proofs.«182220_j41832981463620_2_alg».proof.Proof.EdgeScore

noncomputable section

namespace Cert.KernelIdeal.Ops

open Cert.KernelIdeal Cert.KernelIdeal.Gen Idealize.ShloMosaic Idealize.ShloMosaic.ValueIdx

/-- Entry e of the vector the body stores. -/
theorem stored_apply (x0 : Vec Ideal S1x2048x3 .f32) (x1 x2 : Vec Ideal S1x2048x512 .f32) (x3 : Vec Ideal S8x6 .f32)
    (x4 : Vec Ideal S8 .f32) (x5 : Vec Ideal S1x8 .f32) (x6 : Vec Ideal S1 .f32) (e : Fin 512) :
    k0_pay1 (F := Ideal) x0 x1 x2 x3 x4 x5 x6 (ix1 e)
      = EdgeScore.score (fun n => x2 (ix3 0 n e)) (fun n => x1 (ix3 0 n e)) (fun n d => x0 (ix3 0 n d))
          (fun h j => x3 (ix2 h j)) (fun h => x4 (ix1 h)) (fun h => x5 (ix2 0 h)) (x6 (ix1 0)) := by
  unfold k0_pay1
  rw [column_apply]
  unfold EdgeScore.score
  show Ideal.logistic (_ + _) = Ideal.logistic (_ + _)
  refine congrArg Ideal.logistic (congrArg₂ (· + ·) ?_ (bias1_apply x6 e))
  refine (dense8_apply _ _ e).trans (Finset.sum_congr rfl fun h _ => congrArg (· * _) ?_)
  unfold EdgeScore.hidden
  show Ideal.tanh (_ + _) = Ideal.tanh (_ + _)
  refine congrArg Ideal.tanh (congrArg₂ (· + ·) ?_ (bias8_apply x4 e h))
  refine (dense6_apply _ _ e h).trans (Finset.sum_congr rfl fun j _ => congrArg (· * _) ?_)
  rw [sideBySide_apply]
  unfold EdgeScore.feature EdgeScore.gathered
  split
  · rename_i hj
    refine (gather_apply _ _ e ⟨j.val, hj⟩).trans (Finset.sum_congr rfl fun n _ => ?_)
    exact congrArg₂ (· * ·) (incidence_apply x2 n e) (nodes_apply x0 n ⟨j.val, hj⟩)
  · rename_i hj
    refine (gather_apply _ _ e ⟨j.val - 3, by have := j.isLt; omega⟩).trans (Finset.sum_congr rfl fun n _ => ?_)
    exact congrArg₂ (· * ·) (incidence_apply x1 n e) (nodes_apply x0 n ⟨j.val - 3, by have := j.isLt; omega⟩)

end Cert.KernelIdeal.Ops

end
-- ==== Proof.ScoreTable.lean ====
/-
  All the scores, from the whole argument arrays.

  `scoreAt` is the score of edge e of batch b: `EdgeScore.score` of column e of batch b of the two incidence
  arrays, of batch b of the node features, and of the weights. The table of all scores is the [8, 4096]
  array (b, e) ↦ scoreAt b e; the same numbers in ONE row-major vector of 8 · 4096 = 32768 entries put the score
  of (b, e) at position 4096 · b + e, so position f holds the score of (f / 4096, f % 4096), and reshaping that
  vector to [8, 4096] gives the table back.
-/
import proofs.«182220_j41832981463620_2_alg».proof.Proof.EdgeScore
import Idealize.ShloMosaic.Lib.Pipeline.Value
import Idealize.ShloMosaic.Lib.ValueIdx

noncomputable section

namespace Cert.EdgeScore

open Idealize.ShloMosaic Idealize.ShloMosaic.ValueIdx

variable (X : (⟨3, ![8, 2048, 3]⟩ : Shape).Idx → EReal) (Ri Ro : (⟨3, ![8, 2048, 4096]⟩ : Shape).Idx → EReal)
  (W1 : (⟨2, ![8, 6]⟩ : Shape).Idx → EReal) (B1 : (⟨1, ![8]⟩ : Shape).Idx → EReal)
  (W2 : (⟨2, ![1, 8]⟩ : Shape).Idx → EReal) (B2 : (⟨1, ![1]⟩ : Shape).Idx → EReal)

/-- The score of edge e of batch b. -/
def scoreAt (b : Fin 8) (e : Fin 4096) : EReal :=
  score (fun n => Ro (ix3 b n e)) (fun n => Ri (ix3 b n e)) (fun n d => X (ix3 b n d))
    (fun h j => W1 (ix2 h j)) (fun h => B1 (ix1 h)) (fun h => W2 (ix2 0 h)) (B2 (ix1 0))

/-- The [8, 4096] table of all scores. -/
def table : (⟨2, ![8, 4096]⟩ : Shape).Idx → EReal := fun i => scoreAt X Ri Ro W1 B1 W2 B2 (i 0) (i 1)

/-- The same scores as one row-major vector: position f holds the score of (f / 4096, f % 4096). -/
def flat : (⟨1, ![32768]⟩ : Shape).Idx → EReal := fun f =>
  scoreAt X Ri Ro W1 B1 W2 B2 ⟨(f 0).val / 4096, by have h : (f 0).val < 32768 := (f 0).isLt; omega⟩
    ⟨(f 0).val % 4096, Nat.mod_lt _ (by decide)⟩

/-- Reshaping the row-major vector to [8, 4096] gives the table. -/
theorem reshape_flat (h : (⟨1, ![32768]⟩ : Shape).ShapeCasts ⟨2, ![8, 4096]⟩) :
    shapeCast ⟨2, ![8, 4096]⟩ (flat X Ri Ro W1 B1 W2 B2) h = table X Ri Ro W1 B1 W2 B2 := by
  funext i
  have h0 : (i 0).val < 8 := (i 0).isLt
  have h1 : (i 1).val < 4096 := (i 1).isLt
  rw [shapeCast_apply _ h i (ix1 ⟨(i 0).val * 4096 + (i 1).val, by omega⟩)
    (by rw [Shape.rowMajor_val_one, Shape.rowMajor_val_two]; rfl)]
  unfold flat table
  congr 1 <;> apply Fin.ext
  · show ((i 0).val * 4096 + (i 1).val) / 4096 = (i 0).val; omega
  · show ((i 0).val * 4096 + (i 1).val) % 4096 = (i 1).val; omega

end Cert.EdgeScore

end
-- ==== Proof.KernelArray.lean ====
/-
  The kernel's output array after the region: the row-major vector of all scores.

  The grid has 8 × 8 points; point t works on batch t / 8 and on edge tile t % 8. Its node-feature block is
  batch t / 8 of the node features, its two incidence blocks are columns 512 · (t % 8) … 512 · (t % 8) + 511 of
  batch t / 8 of the incidence arrays, the weights and biases are whole, and it writes block t of the flat
  output, positions 512 · t … 512 · t + 511. Position 512 · t + e is 4096 · (t / 8) + (512 · (t % 8) + e), the row-major
  position of (batch, edge) = (t / 8, 512 · (t % 8) + e): so what point t writes at e, the score of column e of its
  tiles, is the flat vector of all scores at that position. The 64 blocks tile the 32768 positions.
-/
import proofs.«182220_j41832981463620_2_alg».proof.Proof.Gen.KernelIdeal.Frame
import proofs.«182220_j41832981463620_2_alg».proof.Proof.KernelScore
import proofs.«182220_j41832981463620_2_alg».proof.Proof.ScoreTable
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (m : (ℓ : Loc nD τ sig) → Buf (Elt Ideal) ℓ) (ρ : Dev nD → PrngReg)

theorem lt64 (t : Fin cfg0.N) : t.val < 64 := lt_of_lt_of_eq t.isLt N_0

/-! ## The index maps over the grid -/

/-- The node-feature block of point t is batch t / 8. -/
theorem nodes_index : ∀ t : Fin cfg0.N, win0_0.index t (0 : Fin 3) = t.val / 8 ∧ win0_0.index t (1 : Fin 3) = 0
    ∧ win0_0.index t (2 : Fin 3) = 0 :=
  (by decide +kernel : ∀ t : Fin grid0.N, _)
/-- The incoming incidence block of point t is batch t / 8, column tile t % 8. -/
theorem incoming_index : ∀ t : Fin cfg0.N, win0_1.index t (0 : Fin 3) = t.val / 8 ∧ win0_1.index t (1 : Fin 3) = 0
    ∧ win0_1.index t (2 : Fin 3) = t.val % 8 :=
  (by decide +kernel : ∀ t : Fin grid0.N, _)
/-- The outgoing incidence block likewise. -/
theorem outgoing_index : ∀ t : Fin cfg0.N, win0_2.index t (0 : Fin 3) = t.val / 8 ∧ win0_2.index t (1 : Fin 3) = 0
    ∧ win0_2.index t (2 : Fin 3) = t.val % 8 :=
  (by decide +kernel : ∀ t : Fin grid0.N, _)
/-- The weights and biases are whole at every point. -/
theorem whole_index : ∀ t : Fin cfg0.N, win0_3.index t (0 : Fin 2) = 0 ∧ win0_3.index t (1 : Fin 2) = 0
    ∧ win0_4.index t (0 : Fin 1) = 0 ∧ win0_5.index t (0 : Fin 2) = 0 ∧ win0_5.index t (1 : Fin 2) = 0
    ∧ win0_6.index t (0 : Fin 1) = 0 :=
  (by decide +kernel : ∀ t : Fin grid0.N, _)
/-- Point t writes block t of the flat output. -/
theorem out_index : ∀ t : Fin cfg0.N, win0_7.index t (0 : Fin 1) = t.val :=
  (by decide +kernel : ∀ t : Fin grid0.N, _)

/-! ## Each window's block, read off its array -/

theorem nodes_blk (c : Dev nD) (t : Fin cfg0.N) (n : Fin 2048) (d : Fin 3) (b : Fin 8) (hb : b.val = t.val / 8) :
    (iblk m c 0 t : Vec Ideal S1x2048x3 .f32) (ix3 0 n d) = (V m c main_arg0 : S8x2048x3.Idx → EReal) (ix3 b n d) := by
  obtain ⟨e0, e1, e2⟩ := nodes_index t
  unfold iblk
  rw [View.read_apply]
  show V m c main_arg0 _ = V m c main_arg0 _
  congr 1
  funext a
  apply Fin.ext
  match a with
  | ⟨0, _⟩ => show win0_0.index t (0 : Fin 3) * 1 + 1 * (0 : Fin 1).val = b.val; rw [e0, hb]; simp
  | ⟨1, _⟩ => show win0_0.index t (1 : Fin 3) * 2048 + 1 * n.val = n.val; rw [e1]; omega
  | ⟨2, _⟩ => show win0_0.index t (2 : Fin 3) * 3 + 1 * d.val = d.val; rw [e2]; omega

theorem incoming_blk (c : Dev nD) (t : Fin cfg0.N) (n : Fin 2048) (e : Fin 512) (b : Fin 8) (g : Fin 4096)
    (hb : b.val = t.val / 8) (hg : g.val = t.val % 8 * 512 + e.val) :
    (iblk m c 1 t : Vec Ideal S1x2048x512 .f32) (ix3 0 n e) = (V m c main_arg1 : S8x2048x4096.Idx → EReal) (ix3 b n g) := by
  obtain ⟨e0, e1, e2⟩ := incoming_index t
  unfold iblk
  rw [View.read_apply]
  show V m c main_arg1 _ = V m c main_arg1 _
  congr 1
  funext a
  apply Fin.ext
  match a with
  | ⟨0, _⟩ => show win0_1.index t (0 : Fin 3) * 1 + 1 * (0 : Fin 1).val = b.val; rw [e0, hb]; simp
  | ⟨1, _⟩ => show win0_1.index t (1 : Fin 3) * 2048 + 1 * n.val = n.val; rw [e1]; omega
  | ⟨2, _⟩ => show win0_1.index t (2 : Fin 3) * 512 + 1 * e.val = g.val; rw [e2, hg]; omega

theorem outgoing_blk (c : Dev nD) (t : Fin cfg0.N) (n : Fin 2048) (e : Fin 512) (b : Fin 8) (g : Fin 4096)
    (hb : b.val = t.val / 8) (hg : g.val = t.val % 8 * 512 + e.val) :
    (iblk m c 2 t : Vec Ideal S1x2048x512 .f32) (ix3 0 n e) = (V m c main_arg2 : S8x2048x4096.Idx → EReal) (ix3 b n g) := by
  obtain ⟨e0, e1, e2⟩ := outgoing_index t
  unfold iblk
  rw [View.read_apply]
  show V m c main_arg2 _ = V m c main_arg2 _
  congr 1
  funext a
  apply Fin.ext
  match a with
  | ⟨0, _⟩ => show win0_2.index t (0 : Fin 3) * 1 + 1 * (0 : Fin 1).val = b.val; rw [e0, hb]; simp
  | ⟨1, _⟩ => show win0_2.index t (1 : Fin 3) * 2048 + 1 * n.val = n.val; rw [e1]; omega
  | ⟨2, _⟩ => show win0_2.index t (2 : Fin 3) * 512 + 1 * e.val = g.val; rw [e2, hg]; omega

theorem w1_blk (c : Dev nD) (t : Fin cfg0.N) (h : Fin 8) (j : Fin 6) :
    (iblk m c 3 t : Vec Ideal S8x6 .f32) (ix2 h j) = (V m c main_arg3 : S8x6.Idx → EReal) (ix2 h j) := by
  obtain ⟨e0, e1, -⟩ := whole_index t
  unfold iblk
  rw [View.read_apply]
  show V m c main_arg3 _ = V m c main_arg3 _
  congr 1
  funext a
  apply Fin.ext
  match a with
  | ⟨0, _⟩ => show win0_3.index t (0 : Fin 2) * 8 + 1 * h.val = h.val; rw [e0]; omega
  | ⟨1, _⟩ => show win0_3.index t (1 : Fin 2) * 6 + 1 * j.val = j.val; rw [e1]; omega

theorem b1_blk (c : Dev nD) (t : Fin cfg0.N) (h : Fin 8) :
    (iblk m c 4 t : Vec Ideal S8 .f32) (ix1 h) = (V m c main_arg4 : S8.Idx → EReal) (ix1 h) := by
  obtain ⟨-, -, e0, -⟩ := whole_index t
  unfold iblk
  rw [View.read_apply]
  show V m c main_arg4 _ = V m c main_arg4 _
  congr 1
  funext a
  apply Fin.ext
  match a with
  | ⟨0, _⟩ => show win0_4.index t (0 : Fin 1) * 8 + 1 * h.val = h.val; rw [e0]; omega

theorem w2_blk (c : Dev nD) (t : Fin cfg0.N) (h : Fin 8) :
    (iblk m c 5 t : Vec Ideal S1x8 .f32) (ix2 0 h) = (V m c main_arg5 : S1x8.Idx → EReal) (ix2 0 h) := by
  obtain ⟨-, -, -, e0, e1, -⟩ := whole_index t
  unfold iblk
  rw [View.read_apply]
  show V m c main_arg5 _ = V m c main_arg5 _
  congr 1
  funext a
  apply Fin.ext
  match a with
  | ⟨0, _⟩ => show win0_5.index t (0 : Fin 2) * 1 + 1 * (0 : Fin 1).val = (0 : Fin 1).val; rw [e0]; simp
  | ⟨1, _⟩ => show win0_5.index t (1 : Fin 2) * 8 + 1 * h.val = h.val; rw [e1]; omega

theorem b2_blk (c : Dev nD) (t : Fin cfg0.N) :
    (iblk m c 6 t : Vec Ideal S1 .f32) (ix1 0) = (V m c main_arg6 : S1.Idx → EReal) (ix1 0) := by
  obtain ⟨-, -, -, -, -, e0⟩ := whole_index t
  unfold iblk
  rw [View.read_apply]
  show V m c main_arg6 _ = V m c main_arg6 _
  congr 1
  funext a
  apply Fin.ext
  match a with
  | ⟨0, _⟩ => show win0_6.index t (0 : Fin 1) * 1 + 1 * (0 : Fin 1).val = (0 : Fin 1).val; rw [e0]; simp

/-! ## What a point writes back, the cover, and the array after the region -/

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The row-major vector of all scores, of the argument arrays as the region finds them. -/
abbrev flatScores (c : Dev nD) : S32768.Idx → EReal :=
  EdgeScore.flat (V m c main_arg0) (V m c main_arg1) (V m c main_arg2) (V m c main_arg3) (V m c main_arg4)
    (V m c main_arg5) (V m c main_arg6)

/-- Point t writes back block t of the vector of all scores. -/
theorem flushed_eq (c : Dev nD) (t : Fin cfg0.N) :
    (dats m 0 c).flushed 7 t = ((cfg0.win 7).blk t).view.read (Elt Ideal) (flatScores m c) := by
  have ht := lt64 t
  show (cfg0.win 7).cut (grid0.coords t) ((dats m 0 c).after 7 t) = _
  rw [after0_7]
  unfold out0_7
  rw [View.canon_unit_zero hz1]
  simp only [View.ld_unit_zero (S := S1x2048x3) hz3, View.ld_unit_zero (S := S1x2048x512) hz3,
    View.ld_unit_zero (S := S8x6) hz2, View.ld_unit_zero (S := S8) hz1, View.ld_unit_zero (S := S1x8) hz2,
    View.ld_unit_zero (S := S1) hz1]
  funext j
  obtain ⟨e, rfl⟩ : ∃ e : Fin 512, j = ix1 e := ⟨j 0, eq_ix1 j⟩
  have he := e.isLt
  show k0_pay1 (iblk m c 0 t) (iblk m c 1 t) (iblk m c 2 t) (iblk m c 3 t) (iblk m c 4 t) (iblk m c 5 t) (iblk m c 6 t) (ix1 e)
    = flatScores m c (((cfg0.win 7).blk t).view.emb (ix1 e))
  have hemb : ((cfg0.win 7).blk t).view.emb (ix1 e) = ix1 ⟨t.val * 512 + e.val, by omega⟩ := by
    funext a
    apply Fin.ext
    match a with
    | ⟨0, _⟩ => show win0_7.index t (0 : Fin 1) * 512 + 1 * e.val = t.val * 512 + e.val; rw [out_index t]; omega
  rw [hemb, Ops.stored_apply]
  unfold flatScores EdgeScore.flat EdgeScore.scoreAt
  have hb : (t.val * 512 + e.val) / 4096 = t.val / 8 := by omega
  have hg : (t.val * 512 + e.val) % 4096 = t.val % 8 * 512 + e.val := by omega
  congr 1
  · funext n; exact outgoing_blk m c t n e _ _ hb hg
  · funext n; exact incoming_blk m c t n e _ _ hb hg
  · funext n d; exact nodes_blk m c t n d _ hb
  · funext h j; exact w1_blk m c t h j
  · funext h; exact b1_blk m c t h
  · funext h; exact w2_blk m c t h
  · exact b2_blk m c t

/-- Every position of the flat output is in some point's block: position i in block i / 512. -/
theorem covered (i : S32768.Idx) :
    ∃ t : Fin cfg0.N, (cfg0.win 7).flush t = true ∧ i ∈ ((cfg0.win 7).blk t).view.set := by
  have hi : (i 0).val < 32768 := (i 0).isLt
  have hq : (i 0).val / 512 < cfg0.N := lt_of_lt_of_eq (by omega : (i 0).val / 512 < 64) N_0.symm
  refine ⟨⟨(i 0).val / 512, hq⟩, flush0_7 _, ?_⟩
  show i ∈ ((View.whole main_v0).slice (win0_7.rect ⟨(i 0).val / 512, hq⟩)).set
  rw [View.set_slice_whole, Rect.mem_set_unit]
  intro a
  match a with
  | ⟨0, _⟩ =>
    show win0_7.index ⟨(i 0).val / 512, hq⟩ (0 : Fin 1) * 512 ≤ (i 0).val
      ∧ (i 0).val < win0_7.index ⟨(i 0).val / 512, hq⟩ (0 : Fin 1) * 512 + 512
    rw [out_index ⟨(i 0).val / 512, hq⟩]
    show (i 0).val / 512 * 512 ≤ (i 0).val ∧ (i 0).val < (i 0).val / 512 * 512 + 512
    omega

/-- The output array after the region is the row-major vector of all scores. -/
theorem final (c : Dev nD) : (dats m 0 c).arrAt 7 cfg0.N = flatScores m c :=
  (dats m 0 c).arrAt_eq_of_cover 7 (flatScores m c) (fun t _ => flushed_eq m c t) covered

end Cert.KernelIdeal.Hand

end
-- ==== Proof.KernelRun.lean ====
/-
  The kernel's run, read: the result buffer ends at the table of all scores, the arguments unchanged.

  After the region the program reshapes the flat output of 32768 entries to [8, 4096]. The region leaves the
  output array at the row-major vector of all scores, so the reshape leaves the table. The argument arrays
  are only read: each ends holding what it was launched with.
-/
import proofs.«182220_j41832981463620_2_alg».proof.Proof.Gen.KernelIdeal.Frame
import proofs.«182220_j41832981463620_2_alg».proof.Proof.KernelArray
import Idealize.ShloMosaic.Lib.StableHlo.Run

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (m : (ℓ : Loc nD τ sig) → Buf (Elt Ideal) ℓ) (ρ : Dev nD → PrngReg)

/-- The table of all scores, of the argument arrays as launched. -/
abbrev scores (c : Dev nD) : S8x4096.Idx → EReal :=
  EdgeScore.table (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6))

/-- The reshape after the region, applied to the region's output array, gives the table. -/
theorem tail_eq (c : Dev nD) :
    Pipeline.afterTail₀ cfgs (dats m) 0 (V0 m) [hostOps1] c main_v1 = scores m c := by
  unfold Pipeline.afterTail₀
  show StableHlo.after hostOps1 _ (Proc.devRef .tc main_v1) = _
  after_results
  have hA : Pipeline.withArrays (cfgs 0).spec c (V0 m c) (fun w => (dats m 0 c).arrAt w (cfgs 0).N) (Proc.devRef .tc main_v0)
      = flatScores m c :=
    (Pipeline.withArrays_arr spec0 launch0.win.arr_inj c _ _ 7).trans (final m c)
  exact (congrArg (fun A : S32768.Idx → EReal => shapeCast S8x4096 A shapeCasts_S32768_S8x4096) hA).trans
    (EdgeScore.reshape_flat _ _ _ _ _ _ _ shapeCasts_S32768_S8x4096)

/-- The result buffer is none of the region's arrays and is not scoped. -/
theorem result_rest : main_v1 ∈ Pipeline.restRefs sig (cfgs 0).spec :=
  Pipeline.mem_restRefs_of main_v1 rfl (by decide)

/-- Every weakly fair execution terminates with the result at the table of all scores and the arguments unchanged. -/
theorem run : θ_run defs (onTc (τ := τ) (main (F := Ideal))) ⟨m, fun _ => 0, ρ⟩ fun r => ∀ c : Dev nD,
      r.2.mem ((c.tc : Thread nD τ).loc main_v1) = scores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v1 result_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.Hand

end
-- ==== Proof.RefScore.lean ====
/-
  The reference's result, read at (b, e), is the edge's score.

  The reference works on whole arrays: two batched products that contract the node axis,
  (b, e, d) ↦ ∑ₙ R (b, n, e) · X (b, n, d), laid side by side on the last axis; a product with W1 over the six
  features plus the bias b1, `tanh`; a product with W2 over the eight hidden units plus the bias b2; and the
  logistic function spelled out as 1 / (1 + exp (−z)), which is the logistic function's definition on every
  extended real. Entry (b, e) of the result therefore depends on column e of batch b of each incidence
  array, on batch b of the node features and on the weights: it is `EdgeScore.score` of those.
-/
import proofs.«182220_j41832981463620_2_alg».proof.Proof.Gen.ReferenceIdeal.Read
import proofs.«182220_j41832981463620_2_alg».proof.Proof.EdgeScore
import Idealize.ShloMosaic.Lib.IdealHost

noncomputable section

namespace Cert.ReferenceIdeal.Hand

open Cert.ReferenceIdeal Cert.ReferenceIdeal.Gen Cert.ReferenceIdeal.Read Idealize.ShloMosaic Idealize.ShloMosaic.ValueIdx

variable (x0 : (⟨S8x2048x3, .f32⟩ : BufTy).Contents (Elt Ideal)) (x1 x2 : (⟨S8x2048x4096, .f32⟩ : BufTy).Contents (Elt Ideal))
  (x3 : (⟨S8x6, .f32⟩ : BufTy).Contents (Elt Ideal)) (x4 : (⟨S8, .f32⟩ : BufTy).Contents (Elt Ideal))
  (x5 : (⟨S1x8, .f32⟩ : BufTy).Contents (Elt Ideal)) (x6 : (⟨S1, .f32⟩ : BufTy).Contents (Elt Ideal))

/-- The outgoing product at (b, e, d): column e of batch b of the outgoing incidence array against feature d. -/
theorem out_apply (b : Fin 8) (e : Fin 4096) (d : Fin 3) :
    val_main_v0 (F := Ideal) x0 x2 (ix3 b e d)
      = EdgeScore.gathered (fun n => x2 (ix3 b n e)) (fun n d => x0 (ix3 b n d)) d := by
  rw [val_main_v0_apply]
  unfold EdgeScore.gathered
  refine Finset.sum_congr rfl fun n _ => ?_
  have el : lidx_main_v0 (ix3 b e d) n = ix3 b n e := funext fun a => by
    match a with | ⟨0, _⟩ => rfl | ⟨1, _⟩ => rfl | ⟨2, _⟩ => rfl
  have er : ridx_main_v0 (ix3 b e d) n = ix3 b n d := funext fun a => by
    match a with | ⟨0, _⟩ => rfl | ⟨1, _⟩ => rfl | ⟨2, _⟩ => rfl
  rw [el, er]

/-- The incoming product likewise. -/
theorem in_apply (b : Fin 8) (e : Fin 4096) (d : Fin 3) :
    val_main_v1 (F := Ideal) x0 x1 (ix3 b e d)
      = EdgeScore.gathered (fun n => x1 (ix3 b n e)) (fun n d => x0 (ix3 b n d)) d := by
  rw [val_main_v1_apply]
  unfold EdgeScore.gathered
  refine Finset.sum_congr rfl fun n _ => ?_
  have el : lidx_main_v1 (ix3 b e d) n = ix3 b n e := funext fun a => by
    match a with | ⟨0, _⟩ => rfl | ⟨1, _⟩ => rfl | ⟨2, _⟩ => rfl
  have er : ridx_main_v1 (ix3 b e d) n = ix3 b n d := funext fun a => by
    match a with | ⟨0, _⟩ => rfl | ⟨1, _⟩ => rfl | ⟨2, _⟩ => rfl
  rw [el, er]

/-- The six features at (b, e, j): the two products side by side on the last axis. -/
theorem feature_apply (b : Fin 8) (e : Fin 4096) (j : Fin 6) :
    val_main_v2 (F := Ideal) x0 x1 x2 (ix3 b e j)
      = EdgeScore.feature (fun n => x2 (ix3 b n e)) (fun n => x1 (ix3 b n e)) (fun n d => x0 (ix3 b n d)) j := by
  unfold val_main_v2 EdgeScore.feature
  split
  · rename_i h
    rw [← out_apply x0 x2 b e ⟨j.val, h⟩]
    exact concatenate_pair_apply_left (2 : Fin S8x4096x6.rank) _ _ concatenates_S8x4096x3_S8x4096x3_S8x4096x6_d2 (ix3 b e j) rfl
      (ix3 b e ⟨j.val, h⟩) (fun c => by match c with | ⟨0, _⟩ => rfl | ⟨1, _⟩ => rfl | ⟨2, _⟩ => rfl)
  · rename_i h
    rw [← in_apply x0 x1 b e ⟨j.val - 3, by have := j.isLt; omega⟩]
    exact concatenate_pair_apply_right (2 : Fin S8x4096x6.rank) _ _ concatenates_S8x4096x3_S8x4096x3_S8x4096x6_d2 (ix3 b e j) rfl rfl
      (ix3 b e ⟨j.val - 3, by have := j.isLt; omega⟩)
      (fun c hc => by match c with | ⟨0, _⟩ => rfl | ⟨1, _⟩ => rfl | ⟨2, _⟩ => exact absurd rfl hc)
      (by show (j.val - 3) + 3 = j.val; omega)

/-- Hidden unit h at (b, e). -/
theorem hidden_apply (b : Fin 8) (e : Fin 4096) (h : Fin 8) :
    val_main_v7 (F := Ideal) x0 x1 x2 x3 x4 (ix3 b e h)
      = EdgeScore.hidden (fun n => x2 (ix3 b n e)) (fun n => x1 (ix3 b n e)) (fun n d => x0 (ix3 b n d))
          (fun h j => x3 (ix2 h j)) (fun h => x4 (ix1 h)) h := by
  rw [val_main_v7_apply, val_main_v6_apply, val_main_v3_apply, val_main_v5_apply, val_main_v4_apply]
  unfold EdgeScore.hidden
  show Ideal.tanh (_ + _) = Ideal.tanh (_ + _)
  refine congrArg Ideal.tanh (congrArg₂ (· + ·) (Finset.sum_congr rfl fun j _ => ?_) ?_)
  · have el : lidx_main_v3 (ix3 b e h) j = ix3 b e j := funext fun a => by
      match a with | ⟨0, _⟩ => rfl | ⟨1, _⟩ => rfl | ⟨2, _⟩ => rfl
    have er : ridx_main_v3 (ix3 b e h) j = ix2 h j := funext fun a => by
      match a with | ⟨0, _⟩ => rfl | ⟨1, _⟩ => rfl
    rw [el, er, feature_apply]
  · exact congrArg x4 (funext fun a => by match a with | ⟨0, _⟩ => rfl)

/-- The reference's result at (b, e) is the score of edge e of batch b. -/
theorem result_apply (b : Fin 8) (e : Fin 4096) :
    val_main_v18 (F := Ideal) x0 x1 x2 x3 x4 x5 x6 (ix2 b e)
      = EdgeScore.score (fun n => x2 (ix3 b n e)) (fun n => x1 (ix3 b n e)) (fun n d => x0 (ix3 b n d))
          (fun h j => x3 (ix2 h j)) (fun h => x4 (ix1 h)) (fun h => x5 (ix2 0 h)) (x6 (ix1 0)) := by
  have i18 : idx_main_v18 (ix2 b e) = ix3 b e 0 := funext fun a => Fin.ext (by
    have hb := b.isLt; have he := e.isLt
    match a with
    | ⟨0, _⟩ => show (b.val * 4096 + e.val) / 4096 = b.val; omega
    | ⟨1, _⟩ => show (b.val * 4096 + e.val) / 1 % 4096 = e.val; omega
    | ⟨2, _⟩ => rfl)
  rw [val_main_v18_apply, i18, val_main_v17_apply, val_main_v16_apply, val_main_cst_0_apply, val_main_v15_apply,
    val_main_v14_apply, val_main_cst_apply, val_main_v13_apply, val_main_v12_apply, val_main_v11_apply,
    val_main_v8_apply, val_main_v10_apply, val_main_v9_apply]
  have one : FloatOps.ofBits (F := Ideal) .f32 0x3F800000#32 = (1 : EReal) := Ideal.ofBits_one_f32
  rw [one]
  unfold EdgeScore.score
  show Ideal.logistic (_ + _) = Ideal.logistic (_ + _)
  refine congrArg Ideal.logistic (congrArg₂ (· + ·) (Finset.sum_congr rfl fun h _ => ?_) ?_)
  · have el : lidx_main_v8 (ix3 b e 0) h = ix3 b e h := funext fun a => by
      match a with | ⟨0, _⟩ => rfl | ⟨1, _⟩ => rfl | ⟨2, _⟩ => rfl
    have er : ridx_main_v8 (ix3 b e 0) h = ix2 0 h := funext fun a => by
      match a with | ⟨0, _⟩ => rfl | ⟨1, _⟩ => rfl
    rw [el, er, hidden_apply]
  · exact congrArg x6 (funext fun a => by match a with | ⟨0, _⟩ => rfl)

end Cert.ReferenceIdeal.Hand

end
-- ==== Proof.RefTable.lean ====
/-
  The reference's whole result is the table of all scores: every index of an [8, 4096] array is (b, e) for its
  two coordinates, and there the result is the score of edge e of batch b.
-/
import proofs.«182220_j41832981463620_2_alg».proof.Proof.RefScore
import proofs.«182220_j41832981463620_2_alg».proof.Proof.ScoreTable

noncomputable section

namespace Cert.ReferenceIdeal.Hand

open Cert.ReferenceIdeal Cert.ReferenceIdeal.Gen Cert.ReferenceIdeal.Read Idealize.ShloMosaic Idealize.ShloMosaic.ValueIdx

/-- The reference's result, as a whole array, is the table of all scores of its arguments. -/
theorem result_eq (x0 : (⟨S8x2048x3, .f32⟩ : BufTy).Contents (Elt Ideal)) (x1 x2 : (⟨S8x2048x4096, .f32⟩ : BufTy).Contents (Elt Ideal))
    (x3 : (⟨S8x6, .f32⟩ : BufTy).Contents (Elt Ideal)) (x4 : (⟨S8, .f32⟩ : BufTy).Contents (Elt Ideal))
    (x5 : (⟨S1x8, .f32⟩ : BufTy).Contents (Elt Ideal)) (x6 : (⟨S1, .f32⟩ : BufTy).Contents (Elt Ideal)) :
    val_main_v18 (F := Ideal) x0 x1 x2 x3 x4 x5 x6 = EdgeScore.table x0 x1 x2 x3 x4 x5 x6 := by
  funext i
  obtain ⟨b, e, rfl⟩ : ∃ (b : Fin 8) (e : Fin 4096), i = ix2 b e := ⟨i 0, i 1, eq_ix2 i⟩
  rw [result_apply]
  rfl

end Cert.ReferenceIdeal.Hand

end
-- ==== Proof.lean ====
/- The proof of `Cert.Claim`.

   Both programs compute, for each of 8 batches and 4096 edges, the score of the edge: with ro, ri the edge's
   columns of the outgoing and incoming incidence arrays and x the batch's node features, six features
   ∑ₙ ro n · x n d (d < 3) and ∑ₙ ri n · x n d, then tanh (∑ⱼ feature j · W1 h j + b1 h) for eight hidden units, then the
   logistic function of ∑ₕ hidden h · W2 h + b2 (Proof/EdgeScore.lean). The kernel does it per batch and per tile
   of 512 edges, contracting the node axis of the blocks directly, with its inputs passed through a narrower
   float format (the identity at the ideal values) and the logistic function as one operation; it writes a flat
   vector that the program then reshapes. The reference does it on whole arrays and spells the logistic function
   as 1 / (1 + exp (−z)), which is that function's definition on every extended real. The two sides are the same
   finite sums, taken over the same index sets, so no law beyond those of a commutative monoid is used and the
   precondition that the inputs are finite is never opened.

   The modules: Proof/EdgeScore.lean (one edge's score), Proof/ScoreTable.lean (all scores, as the [8, 4096] table and
   as one row-major vector), Proof/RefScore.lean and Proof/RefTable.lean (the reference's result is the table),
   Proof/KernelOps.lean and Proof/KernelScore.lean (the body's stored vector at an edge is its score),
   Proof/KernelArray.lean (the 64 blocks fill the row-major vector), Proof/KernelRun.lean (the reshape gives the table).
   The three frames are the generated frame runs; the idealization rewrote nothing, so `preserves` is `True`. -/
import proofs.«182220_j41832981463620_2_alg».proof.Defs
import proofs.«182220_j41832981463620_2_alg».proof.Proof.Gen.Kernel
import proofs.«182220_j41832981463620_2_alg».proof.Proof.Gen.Kernel.Skeleton
import proofs.«182220_j41832981463620_2_alg».proof.Proof.Gen.Kernel.Launch
import proofs.«182220_j41832981463620_2_alg».proof.Proof.Gen.Kernel.Points
import proofs.«182220_j41832981463620_2_alg».proof.Proof.Gen.Kernel.Frame
import proofs.«182220_j41832981463620_2_alg».proof.Proof.Gen.KernelIdeal
import proofs.«182220_j41832981463620_2_alg».proof.Proof.Gen.KernelIdeal.Skeleton
import proofs.«182220_j41832981463620_2_alg».proof.Proof.Gen.KernelIdeal.Launch
import proofs.«182220_j41832981463620_2_alg».proof.Proof.Gen.KernelIdeal.Points
import proofs.«182220_j41832981463620_2_alg».proof.Proof.Gen.KernelIdeal.Frame
import proofs.«182220_j41832981463620_2_alg».proof.Proof.Gen.ReferenceIdeal
import proofs.«182220_j41832981463620_2_alg».proof.Proof.Gen.ReferenceIdeal.Run
import proofs.«182220_j41832981463620_2_alg».proof.Proof.Gen.ReferenceIdeal.Read
import proofs.«182220_j41832981463620_2_alg».proof.Proof.Gen.Pre_finite_inputs
import proofs.«182220_j41832981463620_2_alg».proof.Proof.KernelRun
import proofs.«182220_j41832981463620_2_alg».proof.Proof.RefTable
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values, from memories that agree on the arguments, the kernel's result buffer ends at the table of
    all scores (Proof/KernelRun.lean) and so does the reference's (Proof/RefTable.lean). -/
theorem algebraic : Cert.algebraic_KernelIdeal_ReferenceIdeal := by
  intro m ρ m' ρ' _ hagree
  refine ⟨fun c => Cert.KernelIdeal.Hand.scores m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v18_eq, Cert.ReferenceIdeal.Hand.result_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
